-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S8192x4096_S8192_d1 : S8192x4096.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v14 : IVec S_ 1) (main_v15 : FVec F S8192x4096 .f32) (main_cst_5 : FVec F S_ .f32) : IVec S_ 1 :=
  let main_v16 : FVec F S8192 .f32 := (fun x v => Host.reduceAdd x v reducesTo_S8192x4096_S8192_d1 h_S_) main_v15 main_cst_5
  let main_cst_6 : FVec F S_ .f32 := constant S_ .f32 0x00000000#32
  let main_v17 : FVec F S8192 .f32 := broadcastInDim S8192 ![] bcast_S_S8192 main_cst_6
  let main_v18 : IVec S8192 1 := cmpf .ogt main_v16 main_v17
  let main_c_7 : IVec S_ 1 := constantI S_ 1 1#1
  let main_v19 : IVec S_ 1 := (fun x v => Host.reduce IntOp.andi x v reducesTo_S8192_S_d0 h_S_) main_v18 main_c_7
  let main_v20 : IVec S_ 1 := andi main_v14 main_v19
  main_v20

def fn {F : FTy → Type} [FloatOps F] (main_arg0 : FVec F S8192x4096 .f32) (main_arg1 : FVec F S8192x4096 .f32) (main_arg2 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := mulf main_arg0 main_arg0
  let main_cst_2 : FVec F S_ .f32 := constant S_ .f32 0x00000000#32
  let main_v10 : FVec F S8192 .f32 := (fun x v => Host.reduceAdd x v reducesTo_S8192x4096_S8192_d1 h_S_) main_v9 main_cst_2
  let main_cst_3 : FVec F S_ .f32 := constant S_ .f32 0x00000000#32
  let main_v11 : FVec F S8192 .f32 := broadcastInDim S8192 ![] bcast_S_S8192 main_cst_3
  let main_v12 : IVec S8192 1 := cmpf .ogt main_v10 main_v11
  let main_c_4 : IVec S_ 1 := constantI S_ 1 1#1
  let main_v13 : IVec S_ 1 := (fun x v => Host.reduce IntOp.andi x v reducesTo_S8192_S_d0 h_S_) main_v12 main_c_4
  let main_v14 : IVec S_ 1 := andi main_v8 main_v13
  let main_v15 : FVec F S8192x4096 .f32 := mulf main_arg1 main_arg1
  let main_cst_5 : FVec F S_ .f32 := constant S_ .f32 0x00000000#32
  fn_part1 (F := F) main_v14 main_v15 main_cst_5
-- ==== Kernel.lean ====
abbrev S8192x4096 : Shape := ⟨2, ![8192, 4096]⟩
abbrev S8192 : Shape := ⟨1, ![8192]⟩
abbrev S8192x1 : Shape := ⟨2, ![8192, 1]⟩
abbrev S16x1x128 : Shape := ⟨3, ![16, 1, 128]⟩
abbrev S512x4096 : Shape := ⟨2, ![512, 4096]⟩
abbrev S512x1 : Shape := ⟨2, ![512, 1]⟩
abbrev S1x1x128 : Shape := ⟨3, ![1, 1, 128]⟩
abbrev S512x256 : Shape := ⟨2, ![512, 256]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S8192, .f32⟩
  | .hbm, ⟨4, _⟩ => ⟨S8192x1, .f32⟩
  | .hbm, ⟨5, _⟩ => ⟨S16x1x128, .f32⟩
  | .hbm, ⟨6, _⟩ => ⟨S16x1x1, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x1, .f32⟩
  | .local _ .vmem, ⟨5, _⟩ => ⟨S512x1, .f32⟩
  | .local _ .vmem, ⟨6, _⟩ => ⟨S1x1x128, .f32⟩
  | .local _ .vmem, ⟨7, _⟩ => ⟨S1x1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v35 : BitVec 32 := Scalar.muli arg5 c256_i32
  v35
def k0_off1 (k0_t1 : Fin k0_t1_loop.trips) : Fin 2 → Nat :=
  let c0_14 : Index := 0#32
  let c0_i32 : BitVec 32 := 0#32
  let c1_i32 : BitVec 32 := 1#32
  let arg5 : BitVec 32 := Scf.iv c0_i32 c1_i32 k0_t1
  let c256_i32 : BitVec 32 := 256#32
  let v35 : BitVec 32 := Scalar.muli arg5 c256_i32
  let v36 : BitVec 32 := v35
  let v37 : Index := Scalar.indexCast v36
  ![0, v37.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192_S8192x1 : S8192.ShapeCasts S8192x1
  h_S512x256 : 0 < S512x256.numel
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S512x256.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_call2_cst : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Spec.lean ====
/-
  The cosine-similarity margin loss as a function of two feature arrays and a label vector, over the extended reals.

  For a row p the three row products are
      n = ∑ⱼ x(p,j)·y(p,j),   s₁ = ∑ⱼ x(p,j)²,   s₂ = ∑ⱼ y(p,j)²,
  its cosine is n / (√s₁ · √s₂), written either as that quotient or as the product n · (s₁·s₂)^(-1/2); its distance is
  d = 1 − ½(1 + cos), its hinge h = max(1 − √(d + ε), 0), and its loss ½(t·d + (1 − t)·h·h) for the label t.
  The result is the mean of the 8192 row losses. The same mean is also spelled blockwise: 16 blocks of 512 consecutive
  rows, each block summed first.
  The float words are kept as words: 0x3F800000 is 1, 0x3F000000 is ½, 0x3089705F is ε (about 1e-9), 0x46000000 is 8192.
-/
import Idealize.ShloMosaic.PureOps.Ideal
import Idealize.ShloMosaic.Lib.ValueIdx

noncomputable section

open scoped BigOperators

namespace Cert.CosineLoss

open Idealize.ShloMosaic Idealize.ShloMosaic.ValueIdx

/-- The product of row `p` of `x` with row `p` of `y`: ∑ⱼ x(p,j)·y(p,j). -/
def rowDot {a b : ℕ} (x y : (⟨2, ![a, b]⟩ : Shape).Idx → EReal) (p : Fin a) : EReal :=
  ∑ j : Fin b, x (ix2 p j) * y (ix2 p j)

/-- The cosine as a quotient: n / (√s₁ · √s₂). -/
def cosQuot (n s1 s2 : EReal) : EReal := Ideal.div n (Ideal.sqrt s1 * Ideal.sqrt s2)

/-- The cosine as a product with one reciprocal square root: n · (s₁·s₂)^(-1/2). -/
def cosRsqrt (n s1 s2 : EReal) : EReal := n * Ideal.rsqrt (s1 * s2)

/-- The distance of a cosine: 1 − ½(1 + cos). -/
def dist (c : EReal) : EReal :=
  Ideal.ofBits .f32 0x3F800000#32 - Ideal.ofBits .f32 0x3F000000#32 * (Ideal.ofBits .f32 0x3F800000#32 + c)

/-- The hinge of a cosine: max(1 − √(d + ε), 0). -/
def hinge (c : EReal) : EReal :=
  max (Ideal.ofBits .f32 0x3F800000#32 - Ideal.sqrt (dist c + Ideal.ofBits .f32 0x3089705F#32)) (Ideal.ofBits .f32 0x00000000#32)

/-- The loss of a row with cosine `c` and label `t`: ½(t·d + ((1 − t)·h)·h). -/
def rowLoss (c t : EReal) : EReal :=
  Ideal.ofBits .f32 0x3F000000#32 * (t * dist c + (Ideal.ofBits .f32 0x3F800000#32 - t) * hinge c * hinge c)

/-- The mean over the 8192 rows of the row losses, the cosine taken as a quotient. -/
def meanLoss (x y : (⟨2, ![8192, 4096]⟩ : Shape).Idx → EReal) (tv : (⟨1, ![8192]⟩ : Shape).Idx → EReal) : EReal :=
  Ideal.div (∑ p : Fin 8192, rowLoss (cosQuot (rowDot x y p) (rowDot x x p) (rowDot y y p)) (tv (ix1 p)))
    (Ideal.ofBits .f32 0x46000000#32)

/-- The sum of the losses of the 512 rows of one block, the cosine taken with the reciprocal square root, the labels kept
    as a column. -/
def blockLoss (x y : (⟨2, ![512, 4096]⟩ : Shape).Idx → EReal) (tc : (⟨2, ![512, 1]⟩ : Shape).Idx → EReal) : EReal :=
  ∑ r : Fin 512, rowLoss (cosRsqrt (rowDot x y r) (rowDot x x r) (rowDot y y r)) (tc (ix2 r (0 : Fin 1)))

/-- Row `r` of block `t` is row `512·t + r` of the whole. -/
def row (t : Fin 16) (r : Fin 512) : Fin 8192 := ⟨t.val * 512 + r.val, by have := t.isLt; have := r.isLt; omega⟩

/-- Block `t`'s sum of row losses, read off the whole arrays. -/
def blockLossAt (x y : (⟨2, ![8192, 4096]⟩ : Shape).Idx → EReal) (tv : (⟨1, ![8192]⟩ : Shape).Idx → EReal) (t : Fin 16) : EReal :=
  ∑ r : Fin 512, rowLoss (cosRsqrt (rowDot x y (row t r)) (rowDot x x (row t r)) (rowDot y y (row t r))) (tv (ix1 (row t r)))

/-- The mean spelled blockwise: the 16 block sums added, divided by 8192. -/
def blockMean (x y : (⟨2, ![8192, 4096]⟩ : Shape).Idx → EReal) (tv : (⟨1, ![8192]⟩ : Shape).Idx → EReal) : EReal :=
  Ideal.div (∑ t : Fin 16, blockLossAt x y tv t) (Ideal.ofBits .f32 0x46000000#32)

end Cert.CosineLoss

end
-- ==== Proof.LibColumn.lean ====
/-
  A vector kept as a column and spread over the columns of a matrix, read at an index: the two layout steps a
  `keepdims` row reduction prints in a kernel body — an [a] vector cast to [a, 1], and an [a, 1] column broadcast to
  [a, b] — and their composite, which at (p, c) is the vector's entry p whatever the column c. Any extents, any
  element type.
-/
import Idealize.ShloMosaic.Lib.Pipeline.Value
import Idealize.ShloMosaic.Lib.ValueIdx

namespace Cert.Lib.Column

open Idealize.ShloMosaic Idealize.ShloMosaic.ValueIdx

variable {α : Type}

/-- An [a] vector cast to the column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The composite: an [a] vector kept as a column and spread over b columns reads, at (p, c), the vector at p. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.Lib.Column
-- ==== Proof.BodyPayloads.lean ====
/-
  The arithmetic of one grid step, read entry by entry over the extended reals.

  One pass of the inner loop adds to each of three running columns the sum over 256 columns of a product of the chunk's
  entries (x·y, x·x, y·y); after the loop the three columns give each row's cosine, distance, hinge and loss, and the
  step's one output value is the sum of the 512 row losses, spread over the 128 lanes of the output block.
-/
import proofs.«181814_j69449621176854_2_alg».proof.Proof.Gen.KernelIdeal.Skeleton
import proofs.«181814_j69449621176854_2_alg».proof.Proof.Spec
import proofs.«181814_j69449621176854_2_alg».proof.Proof.LibColumn
import Idealize.ShloMosaic.PureOps.Ideal.Laws
import Idealize.ShloMosaic.Lib.Pipeline.Value
import Idealize.ShloMosaic.Lib.ValueIdx

noncomputable section

open scoped BigOperators

namespace Cert.KernelIdeal.BodyPayloads

open Cert.KernelIdeal Cert.KernelIdeal.Gen Idealize.ShloMosaic Idealize.ShloMosaic.ValueIdx Cert.CosineLoss

/-- The sum over the 256 columns of a [512, 256] chunk, kept as a column, at row `r`. -/
theorem rowSum_apply (u : FVec Ideal S512x256 .f32) (hacc : (0x00000000#32 : BitVec 32) = 0x00000000#32) (r : Fin 512) :
    shapeCast S512x1 (multiReduction .add [1] S512 u 0x00000000#32 reduces_S512x256_S512 (.inl rfl) hacc) shapeCasts_S512_S512x1
        (ix2 r (0 : Fin 1))
      = ∑ l : Fin 256, u (ix2 r l) := by
  refine (Cert.Lib.Column.shapeCast_a_a1_apply _ shapeCasts_S512_S512x1 r 0).trans ?_
  refine (Ideal.multiReduction_add_single u 0x00000000#32 reduces_S512x256_S512 (.inl rfl) hacc (ix1 r)).trans ?_
  refine Finset.sum_congr rfl fun l _ => congrArg u ?_
  funext a
  exact Fin.ext (by match a with | ⟨0, _⟩ => rfl | ⟨1, _⟩ => rfl)

/-- One pass adds to the first running column, at row `r`, the chunk's ∑ x·y. -/
theorem pay2_apply (acc : FVec Ideal S512x1 .f32) (v w : Vec Ideal S512x256 .f32) (r : Fin 512) :
    k0_pay2 (F := Ideal) acc v w (ix2 r (0 : Fin 1)) = acc (ix2 r 0) + ∑ l : Fin 256, v (ix2 r l) * w (ix2 r l) := by
  unfold k0_pay2
  exact congrArg (acc (ix2 r 0) + ·) (rowSum_apply (mulf v w) rfl r)

/-- One pass adds to the second running column, at row `r`, the chunk's ∑ x·x. -/
theorem pay3_apply (acc : FVec Ideal S512x1 .f32) (v : Vec Ideal S512x256 .f32) (r : Fin 512) :
    k0_pay3 (F := Ideal) acc v (ix2 r (0 : Fin 1)) = acc (ix2 r 0) + ∑ l : Fin 256, v (ix2 r l) * v (ix2 r l) := by
  unfold k0_pay3
  exact congrArg (acc (ix2 r 0) + ·) (rowSum_apply (mulf v v) rfl r)

/-- One pass adds to the third running column, at row `r`, the chunk's ∑ y·y. -/
theorem pay4_apply (acc : FVec Ideal S512x1 .f32) (w : Vec Ideal S512x256 .f32) (r : Fin 512) :
    k0_pay4 (F := Ideal) acc w (ix2 r (0 : Fin 1)) = acc (ix2 r 0) + ∑ l : Fin 256, w (ix2 r l) * w (ix2 r l) := by
  unfold k0_pay4
  exact congrArg (acc (ix2 r 0) + ·) (rowSum_apply (mulf w w) rfl r)

/-- The running columns start at zero. -/
theorem pay1_apply (j : S512x1.Idx) : k0_pay1 (F := Ideal) j = 0 := by
  unfold k0_pay1
  exact Ideal.ofBits_zero_f32

/-- The indices of a [1, 512, 1] array are its 512 rows. -/
def rowsEquiv : (⟨3, ![1, 512, 1]⟩ : Shape).Idx ≃ Fin 512 where
  toFun i := i 1
  invFun r := ix3 (0 : Fin 1) r (0 : Fin 1)
  left_inv i := by
    funext a
    match a with
    | ⟨0, _⟩ => exact Fin.ext (by have h : (i 0).val < 1 := (i 0).isLt; show (0 : ℕ) = (i 0).val; omega)
    | ⟨1, _⟩ => rfl
    | ⟨2, _⟩ => exact Fin.ext (by have h : (i 2).val < 1 := (i 2).isLt; show (0 : ℕ) = (i 2).val; omega)
  right_inv _ := rfl

/-- A [512, 1] column summed over all its entries and spread over the 128 lanes: every lane holds ∑ᵣ column(r). -/
theorem total_apply (V : FVec Ideal S512x1 .f32) (hacc : (0x00000000#32 : BitVec 32) = 0x00000000#32) (y : S1x1x128.Idx) :
    broadcast S1x1x128
        (extractAt ![0, 0, 0]
          (shapeCast S1x1x1
            (multiReduction .add [1, 2] S1 (shapeCast S1x512x1 V shapeCasts_S512x1_S1x512x1) 0x00000000#32 reduces_S1x512x1_S1 (.inl rfl) hacc)
            shapeCasts_S1_S1x1x1)
          inpos_S1x1x1_p0_0_0) y
      = ∑ r : Fin 512, V (ix2 r (0 : Fin 1)) := by
  show shapeCast S1x1x1
      (multiReduction .add [1, 2] S1 (shapeCast S1x512x1 V shapeCasts_S512x1_S1x512x1) 0x00000000#32 reduces_S1x512x1_S1 (.inl rfl) hacc)
      shapeCasts_S1_S1x1x1 _ = _
  unfold shapeCast
  refine (Ideal.multiReduction_add_total _ 0x00000000#32 reduces_S1x512x1_S1 (fun b => by match b with | ⟨0, _⟩ => rfl) (.inl rfl) hacc _).trans ?_
  refine (Fintype.sum_equiv rowsEquiv _ (fun r : Fin 512 => V (ix2 r (0 : Fin 1))) fun i => ?_)
  refine congrArg V (Shape.reshapeEquiv_eq_of_rowMajor shapeCasts_S512x1_S1x512x1 ?_)
  rw [Shape.rowMajor_val_two, Shape.rowMajor_val_three]
  have h0 : (i 0).val < 1 := (i 0).isLt
  have h2 : (i 2).val < 1 := (i 2).isLt
  show (i 1).val * 1 + 0 = ((i 0).val * 512 + (i 1).val) * 1 + (i 2).val
  have h0' : (i 0).val = 0 := by omega
  have h2' : (i 2).val = 0 := by omega
  omega

/-- After the loop: from the three row-product columns `a` (x·y), `b` (x·x), `c` (y·y) and the label column, every lane
    of the step's output holds the sum of the 512 row losses. -/
theorem pay5_apply (a b c : FVec Ideal S512x1 .f32) (tcol : Vec Ideal S512x1 .f32) (y : S1x1x128.Idx) :
    k0_pay5 (F := Ideal) a b c tcol y
      = ∑ r : Fin 512, rowLoss (cosRsqrt (a (ix2 r 0)) (b (ix2 r 0)) (c (ix2 r 0))) (tcol (ix2 r (0 : Fin 1))) := by
  unfold k0_pay5
  dsimp only
  refine (total_apply _ rfl y).trans (Finset.sum_congr rfl fun r _ => ?_)
  rw [shapeCast_self]
  rfl

end Cert.KernelIdeal.BodyPayloads

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.BodyLoop.lean ====
/-
  The inner loop of one grid step: sixteen passes over chunks of 256 columns, each adding to three running columns the
  chunk's row sums of x·y, x·x and y·y. Chunk k of a [512, 4096] block holds its columns 256·k … 256·k + 255, so after
  the sixteen passes the running columns hold, at each row, the sums over all 4096 columns: the row products.
-/
import proofs.«181814_j69449621176854_2_alg».proof.Proof.Gen.KernelIdeal.Loops
import proofs.«181814_j69449621176854_2_alg».proof.Proof.BodyPayloads
import proofs.«181814_j69449621176854_2_alg».proof.Proof.LibBlockSum
import Idealize.ShloMosaic.Lib.WholeRead

noncomputable section

open scoped BigOperators

namespace Cert.KernelIdeal.BodyLoop

open Cert.KernelIdeal Cert.KernelIdeal.Gen Idealize.ShloMosaic Idealize.ShloMosaic.ValueIdx Cert.CosineLoss
open Cert.KernelIdeal.BodyPayloads

/-- The loop makes sixteen passes. -/
theorem trips_eq : k0_t1_loop.trips = 16 := by decide

/-- Chunk `k`'s row sum of products at row `r`: ∑ over its 256 columns of x(r, 256·k + l)·y(r, 256·k + l); zero past
    the last chunk. -/
def chunkDot (x y : (⟨2, ![512, 4096]⟩ : Shape).Idx → EReal) (r : Fin 512) (k : ℕ) : EReal :=
  if h : k < 16 then ∑ l : Fin 256, x (ix2 r ⟨256 * k + l.val, by have := l.isLt; omega⟩) * y (ix2 r ⟨256 * k + l.val, by have := l.isLt; omega⟩)
  else 0

/-- The sixteen chunk sums of a row add up to the row product. -/
theorem sum_chunkDot (x y : (⟨2, ![512, 4096]⟩ : Shape).Idx → EReal) (r : Fin 512) :
    ∑ k ∈ Finset.range 16, chunkDot x y r k = rowDot x y r := by
  unfold rowDot
  rw [Cert.Lib.sum_blocks 16 256 (by norm_num : (4096 : ℕ) = 16 * 256) (fun j : Fin 4096 => x (ix2 r j) * y (ix2 r j)),
    Finset.sum_range]
  refine Finset.sum_congr rfl fun t _ => ?_
  unfold chunkDot
  rw [dif_pos t.isLt]
  refine Finset.sum_congr rfl fun l _ => ?_
  have e : (⟨256 * t.val + l.val, by have := l.isLt; have := t.isLt; omega⟩ : Fin 4096)
      = ⟨t.val * 256 + l.val, lt_of_lt_of_eq (Cert.Lib.blk_lt t l) (by norm_num)⟩ := Fin.ext (by show 256 * t.val + l.val = t.val * 256 + l.val; omega)
  rw [e]

section
variable (𝒱 : Variants) (c : Dev nD) (bd : Option 𝒱.V) (i : grid0.Coords)
  (arg1 : Memref sig .tc .vmem S512x4096 .f32) (harg1 : arg1.IsWhole) (arg2 : Memref sig .tc .vmem S512x4096 .f32) (harg2 : arg2.IsWhole)
  (arg3 : Memref sig .tc .vmem S512x1 .f32) (harg3 : arg3.IsWhole) (arg4 : Memref sig .tc .vmem S1x1x128 .f32) (harg4 : arg4.IsWhole)
  (x0 x1 : Vec Ideal S512x4096 .f32)

/-- A pass's load of chunk `k` from a block held whole reads, at (r, l), the block at (r, 256·k + l). -/
theorem chunk_apply {arg : Memref sig .tc .vmem S512x4096 .f32} (harg : arg.IsWhole) (x : Vec Ideal S512x4096 .f32)
    (k : Fin k0_t1_loop.trips) (hk : k.val < 16) (r : Fin 512) (l : Fin 256) :
    View.readAt (Elt Ideal) arg.view (Rect.unit (s := S512x4096) (k0_off1 k) S512x256.size (k0_off1_inb k)).toLoadRect (harg.unread x) (ix2 r l)
      = x (ix2 r ⟨256 * k.val + l.val, by have := l.isLt; omega⟩) := by
  refine (Memref.IsWhole.readAt_unread harg x _ _).trans (congrArg x ?_)
  funext a
  apply Fin.ext
  have e := k0_off1_eq k
  match a with
  | ⟨0, _⟩ =>
    show (k0_off1 k) 0 + 1 * r.val = r.val
    rw [e]; show 0 + 1 * r.val = r.val; omega
  | ⟨1, _⟩ =>
    show (k0_off1 k) 1 + 1 * l.val = 256 * k.val + l.val
    rw [e]; show 256 * k.val + 1 * l.val = 256 * k.val + l.val; omega

/-- What one pass makes of the three running columns: each gains its chunk's row sums. -/
theorem trip_eq (k : Fin k0_t1_loop.trips)
    (acc : FVec Ideal S512x1 .f32 × FVec Ideal S512x1 .f32 × FVec Ideal S512x1 .f32) :
    tripR_k0_t1 (F := Ideal) 𝒱 c bd i arg1 harg1 arg2 harg2 arg3 harg3 arg4 harg4 (harg1.unread x0) (harg2.unread x1) k acc
      = (k0_pay2 acc.1
            (View.readAt (Elt Ideal) arg1.view (Rect.unit (s := S512x4096) (k0_off1 k) S512x256.size (k0_off1_inb k)).toLoadRect (harg1.unread x0))
            (View.readAt (Elt Ideal) arg2.view (Rect.unit (s := S512x4096) (k0_off1 k) S512x256.size (k0_off1_inb k)).toLoadRect (harg2.unread x1)),
         k0_pay3 acc.2.1
            (View.readAt (Elt Ideal) arg1.view (Rect.unit (s := S512x4096) (k0_off1 k) S512x256.size (k0_off1_inb k)).toLoadRect (harg1.unread x0)),
         k0_pay4 acc.2.2
            (View.readAt (Elt Ideal) arg2.view (Rect.unit (s := S512x4096) (k0_off1 k) S512x256.size (k0_off1_inb k)).toLoadRect (harg2.unread x1))) := by
  unfold tripR_k0_t1 trip_k0_t1
  rfl

/-- Before pass `n` the running columns hold, at row `r`, the sums of the first `n` chunks. -/
theorem before_pass (n : ℕ) (hn : n ≤ 16) (r : Fin 512) :
    (st_k0_t1 (F := Ideal) 𝒱 c bd i arg1 harg1 arg2 harg2 arg3 harg3 arg4 harg4 (harg1.unread x0) (harg2.unread x1)
        (k0_pay1, k0_pay1, k0_pay1) n).1 (ix2 r (0 : Fin 1)) = ∑ k ∈ Finset.range n, chunkDot x0 x1 r k
    ∧ (st_k0_t1 (F := Ideal) 𝒱 c bd i arg1 harg1 arg2 harg2 arg3 harg3 arg4 harg4 (harg1.unread x0) (harg2.unread x1)
        (k0_pay1, k0_pay1, k0_pay1) n).2.1 (ix2 r (0 : Fin 1)) = ∑ k ∈ Finset.range n, chunkDot x0 x0 r k
    ∧ (st_k0_t1 (F := Ideal) 𝒱 c bd i arg1 harg1 arg2 harg2 arg3 harg3 arg4 harg4 (harg1.unread x0) (harg2.unread x1)
        (k0_pay1, k0_pay1, k0_pay1) n).2.2 (ix2 r (0 : Fin 1)) = ∑ k ∈ Finset.range n, chunkDot x1 x1 r k := by
  induction n with
  | zero =>
    simp only [Finset.range_zero, Finset.sum_empty]
    exact ⟨pay1_apply (ix2 r (0 : Fin 1)), pay1_apply (ix2 r (0 : Fin 1)), pay1_apply (ix2 r (0 : Fin 1))⟩
  | succ n ih =>
    have hn' : n < 16 := hn
    obtain ⟨ih1, ih2, ih3⟩ := ih (Nat.le_of_lt hn')
    have hk : n < k0_t1_loop.trips := by rw [trips_eq]; exact hn'
    have hs := st_k0_t1_succ (F := Ideal) 𝒱 c bd i arg1 harg1 arg2 harg2 arg3 harg3 arg4 harg4 (harg1.unread x0) (harg2.unread x1)
      (k0_pay1, k0_pay1, k0_pay1) ⟨n, hk⟩
    rw [show (⟨n, hk⟩ : Fin k0_t1_loop.trips).val + 1 = n + 1 from rfl] at hs
    rw [hs, trip_eq]
    simp only [Finset.sum_range_succ]
    refine ⟨?_, ?_, ?_⟩
    · refine (pay2_apply _ _ _ r).trans ?_
      rw [ih1]
      refine congrArg (_ + ·) ?_
      unfold chunkDot
      rw [dif_pos hn']
      exact Finset.sum_congr rfl fun l _ => by
        rw [chunk_apply harg1 x0 ⟨n, hk⟩ hn' r l, chunk_apply harg2 x1 ⟨n, hk⟩ hn' r l]
    · refine (pay3_apply _ _ r).trans ?_
      rw [ih2]
      refine congrArg (_ + ·) ?_
      unfold chunkDot
      rw [dif_pos hn']
      exact Finset.sum_congr rfl fun l _ => by
        rw [chunk_apply harg1 x0 ⟨n, hk⟩ hn' r l]
    · refine (pay4_apply _ _ r).trans ?_
      rw [ih3]
      refine congrArg (_ + ·) ?_
      unfold chunkDot
      rw [dif_pos hn']
      exact Finset.sum_congr rfl fun l _ => by
        rw [chunk_apply harg2 x1 ⟨n, hk⟩ hn' r l]

/-- After the sixteen passes the running columns hold the row products. -/
theorem after_loop (r : Fin 512) :
    (st_k0_t1 (F := Ideal) 𝒱 c bd i arg1 harg1 arg2 harg2 arg3 harg3 arg4 harg4 (harg1.unread x0) (harg2.unread x1)
        (k0_pay1, k0_pay1, k0_pay1) 16).1 (ix2 r (0 : Fin 1)) = rowDot x0 x1 r
    ∧ (st_k0_t1 (F := Ideal) 𝒱 c bd i arg1 harg1 arg2 harg2 arg3 harg3 arg4 harg4 (harg1.unread x0) (harg2.unread x1)
        (k0_pay1, k0_pay1, k0_pay1) 16).2.1 (ix2 r (0 : Fin 1)) = rowDot x0 x0 r
    ∧ (st_k0_t1 (F := Ideal) 𝒱 c bd i arg1 harg1 arg2 harg2 arg3 harg3 arg4 harg4 (harg1.unread x0) (harg2.unread x1)
        (k0_pay1, k0_pay1, k0_pay1) 16).2.2 (ix2 r (0 : Fin 1)) = rowDot x1 x1 r := by
  obtain ⟨h1, h2, h3⟩ := before_pass 𝒱 c bd i arg1 harg1 arg2 harg2 arg3 harg3 arg4 harg4 x0 x1 16 (Nat.le_refl 16) r
  exact ⟨h1.trans (sum_chunkDot x0 x1 r), h2.trans (sum_chunkDot x0 x0 r), h3.trans (sum_chunkDot x1 x1 r)⟩

end

end Cert.KernelIdeal.BodyLoop

end
-- ==== Proof.BodyValue.lean ====
/-
  What one grid step leaves in the output block: every lane holds the block's sum of row losses.

  The step's one store writes the whole [1, 1, 128] block with the value computed from the loop's three running columns
  and the label column; the loop's columns are the row products of the two input blocks, so the value is the sum over the
  block's 512 rows of each row's loss.
-/
import proofs.«181814_j69449621176854_2_alg».proof.Proof.Gen.KernelIdeal.Frame
import proofs.«181814_j69449621176854_2_alg».proof.Proof.Spec
import proofs.«181814_j69449621176854_2_alg».proof.Proof.BodyLoop

set_option maxRecDepth 16384

noncomputable section

open scoped BigOperators

namespace Cert.KernelIdeal.BodyValue

open Cert.KernelIdeal Cert.KernelIdeal.Gen Idealize.ShloMosaic Idealize.ShloMosaic.TcCoe Idealize.SL.Sem
open Idealize.ShloMosaic.ValueIdx

/-- The load of the whole label column from a block held whole reads the column. -/
theorem label_apply {arg3 : Memref sig .tc .vmem S512x1 .f32} (harg3 : arg3.IsWhole) (x2 : Vec Ideal S512x1 .f32) (r : Fin 512) :
    View.readAt (Elt Ideal) arg3.view (Rect.unit (s := S512x1) ![0, 0] S512x1.size inb_S512x1_S512x1_0_0).toLoadRect (harg3.unread x2)
        (ix2 r (0 : Fin 1))
      = x2 (ix2 r (0 : Fin 1)) := by
  refine (Memref.IsWhole.readAt_unread harg3 x2 _ _).trans (congrArg x2 ?_)
  funext a
  apply Fin.ext
  match a with
  | ⟨0, _⟩ => show 0 + 1 * r.val = r.val; omega
  | ⟨1, _⟩ => rfl

/-- On any staging memrefs, from input blocks `x0`, `x1` (features) and `x2` (the label column), the body leaves in every
    lane of the output block the block's sum of row losses. -/
theorem out_eq (c : Dev nD) (i : grid0.Coords) (arg1 : Memref sig .tc .vmem S512x4096 .f32) (harg1 : arg1.IsWhole)
    (arg2 : Memref sig .tc .vmem S512x4096 .f32) (harg2 : arg2.IsWhole) (arg3 : Memref sig .tc .vmem S512x1 .f32) (harg3 : arg3.IsWhole)
    (arg4 : Memref sig .tc .vmem S1x1x128 .f32) (harg4 : arg4.IsWhole)
    (x0 : Vec Ideal S512x4096 .f32) (x1 : Vec Ideal S512x4096 .f32) (x2 : Vec Ideal S512x1 .f32) :
    out0_A_3 (F := Ideal) c i arg1 harg1 arg2 harg2 arg3 harg3 arg4 harg4 x0 x1 x2
      = fun _ => Cert.CosineLoss.blockLoss x0 x1 x2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero (funext fun a => by match a with | ⟨0, _⟩ => rfl | ⟨1, _⟩ => rfl | ⟨2, _⟩ => rfl)]
  funext y
  refine (Cert.KernelIdeal.BodyPayloads.pay5_apply _ _ _ _ y).trans ?_
  unfold Cert.CosineLoss.blockLoss
  refine Finset.sum_congr rfl fun r _ => ?_
  obtain ⟨h1, h2, h3⟩ := Cert.KernelIdeal.BodyLoop.after_loop Variants.none c none i arg1 harg1 arg2 harg2 arg3 harg3 arg4 harg4 x0 x1 r
  have e16 : Scf.trips (0#32) (Scalar.addi 0#32 16#32) 1#32 = 16 := Cert.KernelIdeal.BodyLoop.trips_eq
  rw [e16, h1, h2, h3, label_apply harg3 x2 r]

end Cert.KernelIdeal.BodyValue

end
-- ==== Proof.KernelValue.lean ====
/-
  The idealized kernel's run, from what one grid step leaves to the program's scalar result.
-/
import proofs.«181814_j69449621176854_2_alg».proof.Proof.BodyValue
import Idealize.ShloMosaic.Lib.Pipeline.Value
import Idealize.ShloMosaic.Lib.Tactic
import Idealize.ShloMosaic.Lib.IdealHost

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.CosineLoss

section

variable (m : (ℓ : Loc nD τ sig) → Buf (Elt Ideal) ℓ) (ρ : Dev nD → PrngReg)

/-- The printed index maps, decided over the grid: at point `t` every window is at block `t` of its leading axis and
    block 0 of the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a block number. -/
def blkOf (t : Fin cfg0.N) : Fin 16 := ⟨t.val, lt_of_lt_of_eq t.isLt N_0⟩

/-- Row `r`, column `j` of the first feature block at point `t` is row `512·t + r`, column `j` of the first argument. -/
theorem iblk0_apply (c : Dev nD) (t : Fin cfg0.N) (r : Fin 512) (j : Fin 4096) :
    (iblk m c 0 t : Vec Ideal S512x4096 .f32) (ix2 r j)
      = (m ((c.tc : Thread nD τ).loc main_arg0) : S8192x4096.Idx → EReal) (ix2 (row (blkOf t) r) j) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [e0]; omega
  | ⟨1, _⟩ => show win0_0.index t 1 * 4096 + 1 * j.val = j.val; rw [e1]; omega

/-- Row `r`, column `j` of the second feature block at point `t` is row `512·t + r`, column `j` of the second argument. -/
theorem iblk1_apply (c : Dev nD) (t : Fin cfg0.N) (r : Fin 512) (j : Fin 4096) :
    (iblk m c 1 t : Vec Ideal S512x4096 .f32) (ix2 r j)
      = (m ((c.tc : Thread nD τ).loc main_arg1) : S8192x4096.Idx → EReal) (ix2 (row (blkOf t) r) j) := by
  obtain ⟨-, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = t.val * 512 + r.val; rw [e0]; omega
  | ⟨1, _⟩ => show win0_1.index t 1 * 4096 + 1 * j.val = j.val; rw [e1]; omega

/-- The label column as the region finds it: the labels converted to floats and laid out as a column. -/
theorem V_main_v1 (c : Dev nD) : (V m c main_v1 : S8192x1.Idx → EReal)
    = shapeCast S8192x1 (sitofp (F := Ideal) .f32 (m ((c.tc : Thread nD τ).loc main_arg2))) shapeCasts_S8192_S8192x1 := by
  show StableHlo.after hostOps0 (fun b => m (c, b)) (Proc.devRef .tc main_v1) = _
  after_results
  rfl

/-- Row `r` of the label block at point `t` is label `512·t + r`, as a float. -/
theorem iblk2_apply (c : Dev nD) (t : Fin cfg0.N) (r : Fin 512) :
    (iblk m c 2 t : Vec Ideal S512x1 .f32) (ix2 r (0 : Fin 1))
      = (sitofp (F := Ideal) .f32 (m ((c.tc : Thread nD τ).loc main_arg2)) : S8192.Idx → EReal) (ix1 (row (blkOf t) r)) := by
  obtain ⟨-, -, -, -, e0, e1, -⟩ := idx_facts t
  unfold iblk
  rw [View.read_apply]
  show V m c main_v1 _ = _
  rw [V_main_v1]
  refine shapeCast_apply _ _ _ (ix1 (row (blkOf t) r)) ?_
  rw [Shape.rowMajor_val_one, Shape.rowMajor_val_two]
  show t.val * 512 + r.val = (win0_2.index t 0 * 512 + 1 * r.val) * 1 + (win0_2.index t 1 * 1 + 1 * 0)
  rw [e0, e1]; omega

/-- A block whose rows are rows `512·t + r` of the whole arrays has the whole arrays' sum of row losses over block `t`. -/
theorem blockLoss_eq_at (X Y : (⟨2, ![8192, 4096]⟩ : Shape).Idx → EReal) (T : (⟨1, ![8192]⟩ : Shape).Idx → EReal)
    (x y : (⟨2, ![512, 4096]⟩ : Shape).Idx → EReal) (tc : (⟨2, ![512, 1]⟩ : Shape).Idx → EReal) (t : Fin 16)
    (hx : ∀ r j, x (ix2 r j) = X (ix2 (row t r) j)) (hy : ∀ r j, y (ix2 r j) = Y (ix2 (row t r) j))
    (ht : ∀ r, tc (ix2 r (0 : Fin 1)) = T (ix1 (row t r))) :
    blockLoss x y tc = blockLossAt X Y T t := by
  unfold blockLoss blockLossAt rowDot
  simp only [hx, hy, ht]

/-- The three input blocks at point `t` have block `t`'s sum of row losses of the arguments. -/
theorem blockLoss_iblk (c : Dev nD) (t : Fin cfg0.N) :
    blockLoss (iblk m c 0 t : Vec Ideal S512x4096 .f32) (iblk m c 1 t : Vec Ideal S512x4096 .f32) (iblk m c 2 t : Vec Ideal S512x1 .f32)
      = blockLossAt (m ((c.tc : Thread nD τ).loc main_arg0)) (m ((c.tc : Thread nD τ).loc main_arg1))
          (sitofp (F := Ideal) .f32 (m ((c.tc : Thread nD τ).loc main_arg2))) (blkOf t) :=
  blockLoss_eq_at (m ((c.tc : Thread nD τ).loc main_arg0)) (m ((c.tc : Thread nD τ).loc main_arg1))
    (sitofp (F := Ideal) .f32 (m ((c.tc : Thread nD τ).loc main_arg2)))
    (iblk m c 0 t : Vec Ideal S512x4096 .f32) (iblk m c 1 t : Vec Ideal S512x4096 .f32) (iblk m c 2 t : Vec Ideal S512x1 .f32) (blkOf t)
    (iblk0_apply m c t) (iblk1_apply m c t) (iblk2_apply m c t)

/-- The array of block sums: at `(i, 0, l)` block `i`'s sum of row losses, in every lane `l`. -/
def blockSums (X Y : (⟨2, ![8192, 4096]⟩ : Shape).Idx → EReal) (T : (⟨1, ![8192]⟩ : Shape).Idx → EReal) : S16x1x128.Idx → EReal :=
  fun i => blockLossAt X Y T ⟨(i 0).val, (i 0).isLt⟩

/-- What point `t` writes back is block `t` of the array of block sums. -/
theorem flushed_eq (c : Dev nD) (t : Fin cfg0.N) :
    (dats m 0 c).flushed 3 t = ((cfg0.win 3).blk t).view.read (Elt Ideal)
      (blockSums (m ((c.tc : Thread nD τ).loc main_arg0)) (m ((c.tc : Thread nD τ).loc main_arg1))
        (sitofp (F := Ideal) .f32 (m ((c.tc : Thread nD τ).loc main_arg2)))) := by
  show (cfg0.win 3).cut (grid0.coords t) ((dats m 0 c).after 3 t) = _
  rw [after0_3]
  unfold outsAt0
  rw [BodyValue.out_eq, blockLoss_iblk]
  obtain ⟨-, -, -, -, -, -, e0, e1, e2⟩ := idx_facts t
  funext y
  rw [View.read_apply]
  unfold blockSums
  show blockLossAt _ _ _ (blkOf t) = blockLossAt _ _ _ _
  congr 1
  apply Fin.ext
  show t.val = win0_3.index t 0 * 1 + 1 * (y 0).val
  have hy : (y 0).val < 1 := (y 0).isLt
  rw [e0]; omega

/-- An index of the output array is in point `t`'s block iff each coordinate is in the block's range on its axis. -/
theorem mem_blk (t : Fin cfg0.N) (i : S16x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v2).slice (win0_3.rect t)).set ↔ _
  rw [View.set_slice_whole, Rect.mem_set_unit]
  exact Iff.rfl

/-- After the region the output array is the array of block sums: point `i₀` covers the indices `(i₀, 0, l)`. -/
theorem final (c : Dev nD) : (dats m 0 c).arrAt 3 cfg0.N
    = blockSums (m ((c.tc : Thread nD τ).loc main_arg0)) (m ((c.tc : Thread nD τ).loc main_arg1))
        (sitofp (F := Ideal) .f32 (m ((c.tc : Thread nD τ).loc main_arg2))) :=
  (dats m 0 c).arrAt_eq_of_cover 3 _ (fun t _ => flushed_eq m c t) fun i => by
    have h0 : (i 0).val < 16 := (i 0).isLt
    have h1 : (i 1).val < 1 := (i 1).isLt
    have h2 : (i 2).val < 128 := (i 2).isLt
    refine ⟨⟨(i 0).val, lt_of_lt_of_eq h0 N_0.symm⟩, flush0_3 _, ?_⟩
    obtain ⟨-, -, -, -, -, -, e0, e1, e2⟩ := idx_facts ⟨(i 0).val, lt_of_lt_of_eq h0 N_0.symm⟩
    rw [mem_blk]
    intro a
    match a with
    | ⟨0, _⟩ => show win0_3.index _ 0 * 1 ≤ (i 0).val ∧ (i 0).val < win0_3.index _ 0 * 1 + 1; rw [e0]; dsimp only; omega
    | ⟨1, _⟩ => show win0_3.index _ 1 * 1 ≤ (i 1).val ∧ (i 1).val < win0_3.index _ 1 * 1 + 1; rw [e1]; omega
    | ⟨2, _⟩ => show win0_3.index _ 2 * 128 ≤ (i 2).val ∧ (i 2).val < win0_3.index _ 2 * 128 + 128; rw [e2]; omega

/-- The sixteen indices of a vector of length 16 are its sixteen coordinates. -/
def idx16 : Fin 16 ≃ S16.Idx where
  toFun t := ix1 t
  invFun j := j 0
  left_inv _ := rfl
  right_inv j := (eq_ix1 j).symm

/-- The lines after the region: lane 0 of each block's row kept, the sixteen block sums added from zero, the sum divided
    by 8192 — the blockwise mean. -/
theorem tail_eq (c : Dev nD) :
    Pipeline.afterTail₀ cfgs (dats m) 0 (V0 m) [hostOps1] c main_v6
      = fun _ => blockMean (m ((c.tc : Thread nD τ).loc main_arg0)) (m ((c.tc : Thread nD τ).loc main_arg1))
          (sitofp (F := Ideal) .f32 (m ((c.tc : Thread nD τ).loc main_arg2))) := by
  have hA : Pipeline.withArrays (cfgs 0).spec c (V0 m c) (fun w => (dats m 0 c).arrAt w (cfgs 0).N) (Proc.tc.devRef main_v2)
      = blockSums (m ((c.tc : Thread nD τ).loc main_arg0)) (m ((c.tc : Thread nD τ).loc main_arg1))
          (sitofp (F := Ideal) .f32 (m ((c.tc : Thread nD τ).loc main_arg2))) :=
    (Pipeline.withArrays_arr spec0 launch0.win.arr_inj c _ _ 3).trans (final m c)
  unfold Pipeline.afterTail₀
  show StableHlo.after hostOps1 _ (Proc.devRef .tc main_v6) = _
  after_results
  rw [hA]
  funext z
  rw [hostDivf_apply, hostReduceAdd_apply, Ideal.hostReduceAdd_total reducesTo_S16_S_d0 (fun b => b.elim0)]
  unfold blockMean
  congr 1
  rw [constant_apply, Ideal.ofBits_zero_f32, zero_add, ← Equiv.sum_comp idx16]
  refine Finset.sum_congr rfl fun t _ => ?_
  show shapeCast S16 (extractStridedSlice S16x1x1 ![0, 0, 0] (blockSums _ _ _) slices_S16x1x128_S16x1x1_0_0_0) shapeCasts_S16x1x1_S16 (ix1 t) = _
  refine (shapeCast_apply _ _ (ix1 t) (ix3 t (0 : Fin 1) (0 : Fin 1)) ?_).trans ?_
  · rw [Shape.rowMajor_val_three, Shape.rowMajor_val_one]
    show (t.val * 1 + 0) * 1 + 0 = t.val
    omega
  refine (extractStridedSlice_apply _ _ _ (ix3 t (0 : Fin 1) (0 : Fin 1)) (ix3 t (0 : Fin 1) (0 : Fin 128)) fun a => ?_).trans ?_
  · match a with
    | ⟨0, _⟩ => show t.val = 0 + t.val; omega
    | ⟨1, _⟩ => rfl
    | ⟨2, _⟩ => rfl
  rfl

end

/-- On every core, from any memory with zero counters: every weakly fair execution of the program terminates with its
    result at the blockwise mean of the row losses of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = (fun _ => Cert.CosineLoss.blockMean (m ((c.tc : Thread nD τ).loc main_arg0)) (m ((c.tc : Thread nD τ).loc main_arg1)) (sitofp (F := Ideal) .f32 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.LibReal.lean ====
/-
  The real-number layer under the extended reals.

  An extended real is REAL when it is the image of a real number (neither infinity).  Sums, products, differences,
  maxima, quotients by a nonzero real and reciprocal square roots of positive reals of real values are real; the three
  float words the programs spell denote real numbers.  On real values the extended-real arithmetic is the arithmetic
  of the reals, so the textbook identity

      (1/N) ∑ (z r - m)² = (1/N) ∑ (z r)² - m²,      m = (1/N) ∑ z r,   N = the number of terms,

  holds for extended reals z r that are all real (it fails at the infinities, where a difference may be junk), and
  its left side is the image of a nonnegative real.
-/
import Mathlib.Data.EReal.Operations
import Mathlib.Data.EReal.Inv
import Mathlib.Analysis.SpecialFunctions.Pow.Real
import Idealize.ShloMosaic.PureOps.Ideal
import Idealize.ShloMosaic.PureOps.Ideal.Laws

noncomputable section

open scoped BigOperators

namespace Cert.Lib

open Idealize.ShloMosaic

/-- An extended real that is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real value is neither infinity. -/
theorem IsReal.ne_top {x : EReal} (h : IsReal x) : x ≠ ⊤ := by
  obtain ⟨a, rfl⟩ := h; exact EReal.coe_ne_top a

theorem IsReal.ne_bot {x : EReal} (h : IsReal x) : x ≠ ⊥ := by
  obtain ⟨a, rfl⟩ := h; exact EReal.coe_ne_bot a

/-- An extended real that is neither infinity is real. -/
theorem isReal_of_ne {x : EReal} (hb : x ≠ ⊥) (ht : x ≠ ⊤) : IsReal x := by
  induction x using EReal.rec with
  | bot => exact absurd rfl hb
  | coe a => exact ⟨a, rfl⟩
  | top => exact absurd rfl ht

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real value is real. -/
theorem IsReal.neg {x : EReal} (hx : IsReal x) : IsReal (-x) := by
  obtain ⟨a, rfl⟩ := hx; exact ⟨-a, (EReal.coe_neg a).symm⟩

/-- The difference of two real values is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The maximum of two real values is real. -/
theorem IsReal.max {x y : EReal} (hx : IsReal x) (hy : IsReal y) : IsReal (max x y) := by
  rcases le_total x y with h | h
  · rw [max_eq_right h]; exact hy
  · rw [max_eq_left h]; exact hx

/-- The minimum of two real values is real. -/
theorem IsReal.min {x y : EReal} (hx : IsReal x) (hy : IsReal y) : IsReal (min x y) := by
  rcases le_total x y with h | h
  · rw [min_eq_left h]; exact hx
  · rw [min_eq_right h]; exact hy

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of real values over a whole finite type is real. -/
theorem IsReal.sum_univ {ι : Type*} [Fintype ι] (f : ι → EReal) (h : ∀ i, IsReal (f i)) :
    IsReal (∑ i, f i) := IsReal.sum _ f fun i _ => h i

/-- The quotient of the images of two reals, the divisor nonzero, is the image of the quotient. -/
theorem div_coe_coe (a : ℝ) {d : ℝ} (hd : d ≠ 0) :
    Ideal.div (a : EReal) (d : EReal) = ((a / d : ℝ) : EReal) := by
  rw [Ideal.div_coe hd, ← EReal.coe_mul, mul_one_div]

/-- The quotient of a real value by a nonzero real is real. -/
theorem IsReal.div_coe {x : EReal} (hx : IsReal x) {d : ℝ} (hd : d ≠ 0) : IsReal (Ideal.div x (d : EReal)) := by
  obtain ⟨a, rfl⟩ := hx; exact ⟨a / d, div_coe_coe a hd⟩

/-- The reciprocal square root of a positive real is the image of the reciprocal of its square root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_pos {v : ℝ} (hv : 0 < v) : IsReal (Ideal.rsqrt (v : EReal)) :=
  ⟨_, rsqrt_coe_pos hv⟩

/-- The reciprocal square root of a nonnegative real plus a positive real is real. -/
theorem isReal_rsqrt_add_pos {v e : ℝ} (hv : 0 ≤ v) (he : 0 < e) :
    IsReal (Ideal.rsqrt ((v : EReal) + (e : EReal))) := by
  rw [← EReal.coe_add]; exact isReal_rsqrt_pos (by linarith)

/-- The word `0x47435000` denotes the real `50000`. -/
theorem ofBits_50000 : Ideal.ofBits .f32 0x47435000#32 = ((50000 : ℝ) : EReal) := by
  simp [Ideal.ofBits, Ideal.ieee, -EReal.coe_mul]; norm_num

/-- The word `0x3727C5AC` (about `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word `0x3727C5AC` denotes a real. -/
theorem isReal_ofBits_eps : IsReal (Ideal.ofBits .f32 0x3727C5AC#32) := by
  obtain ⟨e, _, h⟩ := ofBits_eps_pos; exact ⟨e, h⟩

/-- The word `0x47435000` denotes a real. -/
theorem isReal_ofBits_50000 : IsReal (Ideal.ofBits .f32 0x47435000#32) := ⟨_, ofBits_50000⟩

/-- The word `0x00000000` denotes a real (zero). -/
theorem isReal_ofBits_zero : IsReal (Ideal.ofBits .f32 0x00000000#32) := by
  rw [Ideal.ofBits_zero_f32]; exact isReal_zero

/-- Real witnesses of a family of real values. -/
theorem exists_real_family {ι : Type*} (z : ι → EReal) (hz : ∀ r, IsReal (z r)) :
    ∃ w : ι → ℝ, z = fun r => (w r : EReal) := by
  choose w hw using hz; exact ⟨w, funext hw⟩

/-- The identity among reals: the mean of the squared deviations from the mean is the mean of the squares less the
    square of the mean, when the divisor is the number of terms. -/
theorem real_var_identity {n : ℕ} (w : Fin n → ℝ) (N : ℝ) (hN : N ≠ 0) (hn : (n : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      Fintype.card_fin, nsmul_eq_mul, hn]
  rw [h1]; field_simp; ring

/-- The variance identity on the extended reals, for real entries: with `mean = (∑ z) / N` and `N` the number of
    entries, `(∑ (z - mean)²) / N = (∑ z²) / N - mean²`. -/
theorem var_identity {n : ℕ} (z : Fin n → EReal) (hz : ∀ r, IsReal (z r)) (N : ℝ) (hN : N ≠ 0) (hn : (n : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity w N hN hn]

/-- The same identity with every sum spelled from a zero start, `0 + ∑`. -/
theorem var_identity_zero_add {n : ℕ} (z : Fin n → EReal) (hz : ∀ r, IsReal (z r)) (N : ℝ) (hN : N ≠ 0)
    (hn : (n : ℝ) = N) :
    Ideal.div (0 + ∑ r, (z r - Ideal.div (0 + ∑ r, z r) (N : EReal)) * (z r - Ideal.div (0 + ∑ r, z r) (N : EReal)))
        (N : EReal)
      = Ideal.div (0 + ∑ r, z r * z r) (N : EReal)
          - Ideal.div (0 + ∑ r, z r) (N : EReal) * Ideal.div (0 + ∑ r, z r) (N : EReal) := by
  simp only [zero_add]; exact var_identity z hz N hN hn

/-- The mean of the squared deviations of real entries is the image of a nonnegative real. -/
theorem var_nonneg {n : ℕ} (z : Fin n → EReal) (hz : ∀ r, IsReal (z r)) (N : ℝ) (hN : N ≠ 0) (hn : (n : ℝ) = N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  have hNpos : 0 < N := lt_of_le_of_ne (hn ▸ Nat.cast_nonneg n) (Ne.symm hN)
  simp only [← coe_finset_sum, div_coe_coe _ hN, ← EReal.coe_sub, ← EReal.coe_mul]
  exact ⟨_, div_nonneg (Finset.sum_nonneg fun r _ => mul_self_nonneg _) hNpos.le, rfl⟩

/-- The mean of the squares less the square of the mean, of real entries, is the image of a nonnegative real. -/
theorem var_nonneg' {n : ℕ} (z : Fin n → EReal) (hz : ∀ r, IsReal (z r)) (N : ℝ) (hN : N ≠ 0) (hn : (n : ℝ) = N) :
    ∃ v : ℝ, 0 ≤ v ∧
      Ideal.div (∑ r, z r * z r) (N : EReal)
          - Ideal.div (∑ r, z r) (N : EReal) * Ideal.div (∑ r, z r) (N : EReal) = (v : EReal) := by
  rw [← var_identity z hz N hN hn]; exact var_nonneg z hz N hN hn

/-- The reciprocal square root of a nonnegative real plus the stabiliser word `0x3727C5AC` is real. -/
theorem isReal_rsqrt_add_eps {x : EReal} (hx : ∃ v : ℝ, 0 ≤ v ∧ x = (v : EReal)) :
    IsReal (Ideal.rsqrt (x + Ideal.ofBits .f32 0x3727C5AC#32)) := by
  obtain ⟨v, hv, rfl⟩ := hx
  obtain ⟨e, he, h⟩ := ofBits_eps_pos
  rw [h]; exact isReal_rsqrt_add_pos hv he

end Cert.Lib

end
-- ==== Proof.PreDomain.lean ====
/-
  The precondition read as facts about the two feature arrays.

  The precondition is the conjunction of four scalars: every |x(p,j)| lies strictly below +∞, every |y(p,j)| does, every
  row sum ∑ⱼ x(p,j)² lies strictly above 0, and every row sum ∑ⱼ y(p,j)² does.  An extended real whose absolute value is
  below +∞ is the image of a real number, so every entry of x and of y is real; a finite sum of products of real values
  is real, so each row's sum of squares is the image of a real number, and that number is positive because the row sum is.
-/
import proofs.«181814_j69449621176854_2_alg».proof.Proof.Gen.Pre_finite_inputs
import proofs.«181814_j69449621176854_2_alg».proof.Proof.Spec
import proofs.«181814_j69449621176854_2_alg».proof.Proof.LibReal
import Idealize.ShloMosaic.Lib.ReduceAll
import Idealize.ShloMosaic.PureOps.Ideal.Laws
import Idealize.ShloMosaic.Lib.ValueIdx
import Idealize.ShloMosaic.Lib.IdealHost

noncomputable section

open scoped BigOperators

namespace Cert.CosineLoss.Domain

open Idealize.ShloMosaic Idealize.ShloMosaic.ValueIdx Cert.Pre_finite_inputs Cert.Lib

/-- The scalar shape has exactly one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- The one-bit word of a decided proposition is 1 exactly when the proposition holds. -/
theorem ofBool_decide_eq_one (P : Prop) [Decidable P] : BitVec.ofBool (decide P) = 1#1 ↔ P := by
  by_cases h : P <;> simp [h]

/-- The comparison "less than" of two extended reals is 1 exactly when a < b. -/
theorem cmp_olt_eq_one (a b : EReal) : Ideal.cmp .olt a b = 1#1 ↔ a < b := by
  unfold Ideal.cmp; exact ofBool_decide_eq_one _

/-- The comparison "greater than" of two extended reals is 1 exactly when b < a. -/
theorem cmp_ogt_eq_one (a b : EReal) : Ideal.cmp .ogt a b = 1#1 ↔ b < a := by
  unfold Ideal.cmp; exact ofBool_decide_eq_one _

/-- An extended real whose absolute value max(v, −v) lies strictly below +∞ is real. -/
theorem isReal_of_abs_lt_top (v : EReal) (h : max v (-v) < ⊤) : IsReal v := by
  induction v using EReal.rec with
  | bot => simp at h
  | coe a => exact ⟨a, rfl⟩
  | top => simp at h

/-- If "|x| < +∞ everywhere" is 1, every entry of x is real. -/
theorem real_of_all_abs_lt (x : FVec Ideal S8192x4096 .f32)
    (e : Host.reduce IntOp.andi
          (cmpf .olt (Host.absf x)
            (broadcastInDim S8192x4096 ![] Facts.bcast_S_S8192x4096 (constant (F := Ideal) S_ .f32 0x7F800000#32)))
          (constantI S_ 1 1#1) Facts.reducesTo_S8192x4096_S_d0_1 Facts.h_S_ ix0 = 1#1)
    (i : S8192x4096.Idx) : IsReal (x i) := by
  have hi := Host.reduce_andi_all _ _ _ _ _ e i
  rw [cmpf_apply, broadcastInDim_scalar_apply, constant_apply, ofBits_inf] at hi
  exact isReal_of_abs_lt_top _ ((cmp_olt_eq_one _ _).1 hi)

/-- If "∑ⱼ x(p,j)² > 0 for every row p" is 1, every row's sum of squares is positive. -/
theorem pos_of_all_sum_gt (x : FVec Ideal S8192x4096 .f32)
    (e : Host.reduce IntOp.andi
          (cmpf .ogt
            (Host.reduceAdd (mulf x x) (constant (F := Ideal) S_ .f32 0x00000000#32)
              Facts.reducesTo_S8192x4096_S8192_d1 Facts.h_S_)
            (broadcastInDim S8192 ![] Facts.bcast_S_S8192 (constant (F := Ideal) S_ .f32 0x00000000#32)))
          (constantI S_ 1 1#1) Facts.reducesTo_S8192_S_d0 Facts.h_S_ ix0 = 1#1)
    (p : Fin 8192) : 0 < rowDot x x p := by
  have hp := Host.reduce_andi_all _ _ _ _ _ e (ix1 p)
  rw [cmpf_apply, broadcastInDim_scalar_apply, constant_apply, hostReduceAdd_apply, constant_apply,
    Ideal.hostReduceAdd_single Facts.reducesTo_S8192x4096_S8192_d1 (by decide), Ideal.ofBits_zero_f32, zero_add] at hp
  -- the row sum 0 + ∑ₖ (x·x)(p,k) is above 0; the index (p,k) the sum inserts is the pair of coordinates
  refine lt_of_lt_of_eq ((cmp_ogt_eq_one _ _).1 hp) ?_
  unfold rowDot
  refine Finset.sum_congr rfl fun k _ => ?_
  rw [mulf_apply]
  exact congrArg (fun i => x i * x i) (funext fun a => Fin.ext (by match a with | ⟨0, _⟩ => rfl | ⟨1, _⟩ => rfl))

/-- A positive row sum of squares of real entries is the image of a positive real. -/
theorem row_pos_real (x : FVec Ideal S8192x4096 .f32) (hr : ∀ i, IsReal (x i)) (p : Fin 8192)
    (hpos : 0 < rowDot x x p) : ∃ a : ℝ, 0 < a ∧ rowDot x x p = (a : EReal) := by
  have hs : IsReal (rowDot x x p) := IsReal.sum_univ _ fun j => (hr _).mul (hr _)
  obtain ⟨a, ha⟩ := hs
  exact ⟨a, EReal.coe_pos.1 (ha ▸ hpos), ha⟩

/-- Under the precondition every row's sum of squares, of x and of y, is the image of a positive real. -/
theorem of_pre (x y : FVec Ideal Cert.Pre_finite_inputs.S8192x4096 .f32) (tt : IVec Cert.Pre_finite_inputs.S8192 32)
    (h : Cert.Pre_finite_inputs.fn (F := Ideal) x y tt = fun _ => 1#1) :
    (∀ p : Fin 8192, ∃ a : ℝ, 0 < a ∧ Cert.CosineLoss.rowDot x x p = (a : EReal))
    ∧ (∀ p : Fin 8192, ∃ b : ℝ, 0 < b ∧ Cert.CosineLoss.rowDot y y p = (b : EReal)) := by
  have h0 := congrFun h ValueIdx.ix0
  dsimp only [Cert.Pre_finite_inputs.fn, Cert.Pre_finite_inputs.fn_part1] at h0
  -- the four conjuncts: x finite, y finite, rows of x·x positive, rows of y·y positive
  obtain ⟨h123, h4⟩ := IntOp.andi_eq_one.1 h0
  obtain ⟨h12, h3⟩ := IntOp.andi_eq_one.1 h123
  obtain ⟨h1, h2⟩ := IntOp.andi_eq_one.1 h12
  exact ⟨fun p => row_pos_real x (real_of_all_abs_lt x h1) p (pos_of_all_sum_gt x h3 p),
    fun p => row_pos_real y (real_of_all_abs_lt y h2) p (pos_of_all_sum_gt y h4 p)⟩

end Cert.CosineLoss.Domain

end
-- ==== Proof.Laws.lean ====
/-
  The two spellings of the cosine agree on positive real norms, and the blockwise mean is the mean.

  For positive reals a, b the reciprocal square root of the product a·b is 1 / (√a · √b), because √(a·b) = √a · √b; so
  n · (a·b)^(-1/2) = n / (√a · √b) for every extended real n, finite or not. The blockwise mean adds the same 8192 row
  losses as the mean, bracketed into 16 blocks of 512 consecutive rows: a regrouping of a sum, valid in any additive
  commutative monoid, so no finiteness of the losses is needed.
-/
import proofs.«181814_j69449621176854_2_alg».proof.Proof.Spec
import proofs.«181814_j69449621176854_2_alg».proof.Proof.LibBlockSum

noncomputable section

open scoped BigOperators

namespace Cert.CosineLoss

open Idealize.ShloMosaic Idealize.ShloMosaic.ValueIdx

/-- On positive real norms a, b the product with the reciprocal square root of a·b is the quotient by √a·√b. -/
theorem cos_eq (n : EReal) {a b : ℝ} (ha : 0 < a) (hb : 0 < b) :
    cosRsqrt n (a : EReal) (b : EReal) = cosQuot n (a : EReal) (b : EReal) := by
  have hab : 0 < a * b := mul_pos ha hb
  have hs : Real.sqrt a * Real.sqrt b ≠ 0 := (mul_pos (Real.sqrt_pos.mpr ha) (Real.sqrt_pos.mpr hb)).ne'
  unfold cosRsqrt cosQuot
  rw [← EReal.coe_mul, Ideal.rsqrt_coe, if_neg (not_lt.mpr hab.le), if_neg hab.ne',
    Ideal.sqrt_coe, if_neg (not_lt.mpr ha.le), Ideal.sqrt_coe, if_neg (not_lt.mpr hb.le),
    ← EReal.coe_mul, Ideal.div_coe hs, Real.sqrt_mul ha.le, one_div]

/-- The blockwise mean is the mean: the 16 block sums regroup the sum over the 8192 rows, and on each row, whose two
    sums of squares are positive reals, the two spellings of the cosine agree. -/
theorem blockMean_eq_meanLoss (x y : (⟨2, ![8192, 4096]⟩ : Shape).Idx → EReal) (tv : (⟨1, ![8192]⟩ : Shape).Idx → EReal)
    (hx : ∀ p : Fin 8192, ∃ a : ℝ, 0 < a ∧ rowDot x x p = (a : EReal))
    (hy : ∀ p : Fin 8192, ∃ b : ℝ, 0 < b ∧ rowDot y y p = (b : EReal)) :
    blockMean x y tv = meanLoss x y tv := by
  unfold blockMean meanLoss
  congr 1
  rw [Cert.Lib.sum_blocks 16 512 rfl]
  refine Finset.sum_congr rfl fun t _ => ?_
  unfold blockLossAt
  refine Finset.sum_congr rfl fun r _ => ?_
  obtain ⟨a, ha, hxa⟩ := hx (row t r)
  obtain ⟨b, hb, hyb⟩ := hy (row t r)
  show rowLoss (cosRsqrt (rowDot x y (row t r)) (rowDot x x (row t r)) (rowDot y y (row t r))) (tv (ix1 (row t r)))
    = rowLoss (cosQuot (rowDot x y (row t r)) (rowDot x x (row t r)) (rowDot y y (row t r))) (tv (ix1 (row t r)))
  rw [hxa, hyb, cos_eq _ ha hb]

end Cert.CosineLoss

end
-- ==== Proof.RefValue.lean ====
/-
  The reference program's result is the mean row loss of the specification, the cosine taken as a quotient.

  Read one operation at a time, the reference computes for every row p the three row sums n, s₁, s₂, the quotient
  n / (√s₁ · √s₂), the distance and the hinge of that cosine, and the row loss ½(t·d + (1 − t)·(h·h)) with the label t
  converted from its integer; it then adds the 8192 row losses and divides by 8192. The specification brackets the last
  product of the row loss as ((1 − t)·h)·h: the two agree by associativity of the product on the extended reals.
-/
import proofs.«181814_j69449621176854_2_alg».proof.Proof.Gen.ReferenceIdeal.Read
import proofs.«181814_j69449621176854_2_alg».proof.Proof.Spec

noncomputable section

open scoped BigOperators

namespace Cert.ReferenceIdeal.RefValue

open Cert.ReferenceIdeal Cert.ReferenceIdeal.Read Cert.CosineLoss Idealize.ShloMosaic Idealize.ShloMosaic.ValueIdx

/-- A rank-1 index set is its one coordinate range. -/
def idxEquiv1 {n : Nat} : (⟨1, ![n]⟩ : Shape).Idx ≃ Fin n where
  toFun i := i 0
  invFun p := ix1 p
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index the row sums read at row p, column k, is (p, k). -/
theorem idx_row (p : Fin 8192) (k : Fin 4096) : idx_main_v1 (ix1 p) k = ix2 p k :=
  funext fun a => Fin.ext (by match a with | ⟨0, _⟩ => rfl | ⟨1, _⟩ => rfl)

/-- The same for the first array's sum of squares. -/
theorem idx_row0 (p : Fin 8192) (k : Fin 4096) : idx_main_call0_v1 (ix1 p) k = ix2 p k :=
  funext fun a => Fin.ext (by match a with | ⟨0, _⟩ => rfl | ⟨1, _⟩ => rfl)

/-- The same for the second array's sum of squares. -/
theorem idx_row1 (p : Fin 8192) (k : Fin 4096) : idx_main_call1_v1 (ix1 p) k = ix2 p k :=
  funext fun a => Fin.ext (by match a with | ⟨0, _⟩ => rfl | ⟨1, _⟩ => rfl)

/-- The sums start from the zero word, which adds nothing. -/
theorem zero_word_add (s : EReal) : Ideal.ofBits .f32 0x00000000#32 + s = s := by
  rw [Ideal.ofBits_zero_f32, zero_add]

/-- The row loss with its last product bracketed as the reference computes it: (1 − t)·(h·h). -/
theorem rowLoss_assoc (c t : EReal) :
    rowLoss c t = Ideal.ofBits .f32 0x3F000000#32 * (t * CosineLoss.dist c + (Ideal.ofBits .f32 0x3F800000#32 - t) * (hinge c * hinge c)) := by
  unfold rowLoss
  rw [mul_assoc]

/-- The reference's label vector is the conversion of the integer labels. -/
theorem label_eq (x2 : (⟨S8192, .i32⟩ : BufTy).Contents (Elt Ideal)) :
    val_main_v12 (F := Ideal) x2 = sitofp (F := Ideal) .f32 x2 := rfl

/-- Row p of the reference's row losses is the specification's row loss at the quotient cosine and the converted label. -/
theorem row_eq (x0 x1 : (⟨S8192x4096, .f32⟩ : BufTy).Contents (Elt Ideal)) (x2 : (⟨S8192, .i32⟩ : BufTy).Contents (Elt Ideal))
    (p : Fin 8192) :
    val_main_v26 (F := Ideal) x0 x1 x2 (ix1 p)
      = rowLoss (cosQuot (rowDot x0 x1 p) (rowDot x0 x0 p) (rowDot x1 x1 p)) (sitofp (F := Ideal) .f32 x2 (ix1 p)) := by
  rw [val_main_v26_apply, val_main_v25_apply, val_main_cst_6_apply, val_main_v24_apply, val_main_v23_apply,
    val_main_v22_apply, val_main_v21_apply, val_main_v20_apply, val_main_cst_5_apply, val_main_v19_apply,
    val_main_v18_apply, val_main_call2_v0_apply, val_main_call2_cst_apply, val_main_v17_apply, val_main_v16_apply,
    val_main_cst_4_apply, val_main_v15_apply, val_main_v14_apply, val_main_v13_apply, val_main_cst_3_apply,
    val_main_v11_apply, val_main_v10_apply, val_main_cst_2_apply, val_main_v9_apply, val_main_v8_apply,
    val_main_cst_1_apply, val_main_v7_apply, val_main_v6_apply, val_main_cst_0_apply, val_main_v5_apply,
    val_main_v4_apply, val_main_v3_apply, val_main_v2_apply, val_main_v1_apply, val_main_call1_v1_apply,
    val_main_call0_v1_apply, val_main_cst_apply, val_main_call0_cst_apply, val_main_call1_cst_apply,
    label_eq]
  simp only [val_main_v0_apply, val_main_call0_v0_apply, val_main_call1_v0_apply, idx_row, idx_row0, idx_row1,
    Ideal.mulf_def, Ideal.addf_def, Ideal.subf_def,
    Ideal.maximumf_def, Ideal.hostDivf_def, Ideal.hostUnary_sqrt_def, Ideal.ofBits_def, zero_word_add]
  rw [rowLoss_assoc]
  unfold hinge CosineLoss.dist cosQuot rowDot
  rfl

/-- The reference's result at its one index is the mean row loss. -/
theorem result_eq (x0 x1 : (⟨Cert.ReferenceIdeal.S8192x4096, .f32⟩ : BufTy).Contents (Elt Ideal))
    (x2 : (⟨Cert.ReferenceIdeal.S8192, .i32⟩ : BufTy).Contents (Elt Ideal)) :
    Cert.ReferenceIdeal.Read.val_main_v28 (F := Ideal) x0 x1 x2
      = fun _ => Cert.CosineLoss.meanLoss x0 x1 (sitofp (F := Ideal) .f32 x2) := by
  funext i
  rw [val_main_v28_apply, val_main_v27_apply, val_main_cst_7_apply, val_main_cst_8_apply]
  simp only [Ideal.hostDivf_def, Ideal.ofBits_def, zero_word_add]
  rw [sum_idx1]
  unfold meanLoss
  refine congrArg (fun s => Ideal.div s (Ideal.ofBits .f32 0x46000000#32)) ?_
  exact Finset.sum_congr rfl fun p _ => row_eq x0 x1 x2 p

end Cert.ReferenceIdeal.RefValue

end
-- ==== Proof.Claims.lean ====
/-
  The five claims assembled.

  Three of them say that a program runs and leaves its argument arrays unchanged; the fourth is trivially true.  The fifth
  says that the kernel and the reference, from memories agreeing on the arguments, end with equal results.  The common
  result is the mean over the 8192 rows of the row losses, the cosine taken as a quotient.  The reference computes that
  mean as written.  The kernel computes the blockwise mean with the reciprocal-square-root cosine, and under the
  precondition every row's two sums of squares are positive reals, where the blockwise mean is the mean.
-/
import proofs.«181814_j69449621176854_2_alg».proof.Defs
import proofs.«181814_j69449621176854_2_alg».proof.Proof.Gen.Kernel.Frame
import proofs.«181814_j69449621176854_2_alg».proof.Proof.Gen.KernelIdeal.Frame
import proofs.«181814_j69449621176854_2_alg».proof.Proof.Gen.ReferenceIdeal.Run
import proofs.«181814_j69449621176854_2_alg».proof.Proof.Gen.ReferenceIdeal.Read
import proofs.«181814_j69449621176854_2_alg».proof.Proof.Gen.Pre_finite_inputs
import proofs.«181814_j69449621176854_2_alg».proof.Proof.Gen.Kernel
import proofs.«181814_j69449621176854_2_alg».proof.Proof.Gen.KernelIdeal
import proofs.«181814_j69449621176854_2_alg».proof.Proof.Gen.ReferenceIdeal
import proofs.«181814_j69449621176854_2_alg».proof.Proof.PreDomain
import proofs.«181814_j69449621176854_2_alg».proof.Proof.Laws
import proofs.«181814_j69449621176854_2_alg».proof.Proof.RefValue

noncomputable section

open Idealize.ShloMosaic Idealize.ShloMosaic.TcCoe Idealize.SL.Sem

namespace Cert.Proof.Claims

/-- The kernel runs and leaves its arguments unchanged. -/
theorem frame_k : Cert.frame_Kernel := fun m ρ _ => Cert.Kernel.Gen.frame m ρ

/-- The kernel read over the extended reals runs and leaves its arguments unchanged. -/
theorem frame_ki : Cert.frame_KernelIdeal := fun m ρ _ => Cert.KernelIdeal.Gen.frame m ρ

/-- The reference read over the extended reals runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- If the kernel's run ends with the blockwise mean of its arguments, the kernel and the reference end with equal
    results: under the precondition the blockwise mean is the mean, and the reference's result is the mean. -/
theorem algebraic_of
    (hK : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v6)
              = (fun _ => Cert.CosineLoss.blockMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (sitofp (F := Ideal) .f32 (m ((c.tc : Thread Cert.KernelIdeal.nD Cert.KernelIdeal.τ).loc Cert.KernelIdeal.main_arg2))))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))) :
    Cert.algebraic_KernelIdeal_ReferenceIdeal := by
  intro m ρ m' ρ' hpre hagree
  refine ⟨fun c => fun _ => Cert.CosineLoss.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (sitofp (F := Ideal) .f32 (m ((c.tc : Thread Cert.KernelIdeal.nD Cert.KernelIdeal.τ).loc Cert.KernelIdeal.main_arg2))), ?_, ?_⟩
  · -- the kernel's side: its blockwise mean is the mean, the rows' sums of squares being positive reals
    refine (θ_run _ _ _).mono (fun _ h c => ⟨?_, (h c).2⟩) (hK m ρ)
    obtain ⟨hx, hy⟩ := Cert.CosineLoss.Domain.of_pre _ _ _ (hpre c)
    rw [(h c).1, Cert.CosineLoss.blockMean_eq_meanLoss _ _ _ hx hy]
  · -- the reference's side: its result is the mean of its own arguments, which agree with the kernel's
    refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, Cert.ReferenceIdeal.RefValue.result_eq,
      (hagree c).1, (hagree c).2.1, (hagree c).2.2]
    rfl

end Cert.Proof.Claims

end
-- ==== Proof.lean ====
/-
  The cosine-similarity margin loss of two f32[8192, 4096] feature arrays and 8192 integer labels: the kernel against its
  reference, over the extended reals.

  Both programs take, for every row p, the three row products n = ∑ⱼ x(p,j)·y(p,j), s₁ = ∑ⱼ x(p,j)², s₂ = ∑ⱼ y(p,j)², a
  cosine, the distance d = 1 − ½(1 + cos), the hinge h = max(1 − √(d + ε), 0) and the loss ½(t·d + (1 − t)·h·h), and return
  the mean of the 8192 losses. The reference's cosine is the quotient n / (√s₁·√s₂); the kernel's is the product
  n·(s₁·s₂)^(-1/2). The kernel walks 16 blocks of 512 rows; inside a block it adds the row products chunk by chunk over 16
  chunks of 256 columns, sums the block's 512 losses into one value per block, and the lines after it add the 16 block
  values and divide by 8192.

  Regrouping the sums changes nothing on the extended reals. The two cosines agree where s₁ and s₂ are positive reals,
  and they differ at a row of zeros (0·(+∞) = 0 against the junk value of 0/0), so the precondition asks, besides finite
  inputs, that every row of x and of y has a positive sum of squares: outside that domain the reference divides zero by
  zero.

  The modules: Spec (the loss as a function), Laws (the two cosines agree; the blockwise mean is the mean), PreDomain
  (the precondition as positive real row sums), RefValue (the reference's result is the mean), BodyPayloads, BodyLoop,
  BodyValue (one grid step leaves the block's sum of losses), KernelValue (the kernel's run ends with the blockwise
  mean), Claims (the five claims from these).
-/
import proofs.«181814_j69449621176854_2_alg».proof.Defs
import proofs.«181814_j69449621176854_2_alg».proof.Proof.Gen.Kernel
import proofs.«181814_j69449621176854_2_alg».proof.Proof.Gen.Kernel.Skeleton
import proofs.«181814_j69449621176854_2_alg».proof.Proof.Gen.Kernel.Loops
import proofs.«181814_j69449621176854_2_alg».proof.Proof.Gen.Kernel.Launch
import proofs.«181814_j69449621176854_2_alg».proof.Proof.Gen.Kernel.Points
import proofs.«181814_j69449621176854_2_alg».proof.Proof.Gen.Kernel.Frame
import proofs.«181814_j69449621176854_2_alg».proof.Proof.Gen.KernelIdeal
import proofs.«181814_j69449621176854_2_alg».proof.Proof.Gen.KernelIdeal.Skeleton
import proofs.«181814_j69449621176854_2_alg».proof.Proof.Gen.KernelIdeal.Loops
import proofs.«181814_j69449621176854_2_alg».proof.Proof.Gen.KernelIdeal.Launch
import proofs.«181814_j69449621176854_2_alg».proof.Proof.Gen.KernelIdeal.Points
import proofs.«181814_j69449621176854_2_alg».proof.Proof.Gen.KernelIdeal.Frame
import proofs.«181814_j69449621176854_2_alg».proof.Proof.Gen.ReferenceIdeal
import proofs.«181814_j69449621176854_2_alg».proof.Proof.Gen.ReferenceIdeal.Run
import proofs.«181814_j69449621176854_2_alg».proof.Proof.Gen.ReferenceIdeal.Read
import proofs.«181814_j69449621176854_2_alg».proof.Proof.Gen.Pre_finite_inputs
import proofs.«181814_j69449621176854_2_alg».proof.Proof.KernelValue
import proofs.«181814_j69449621176854_2_alg».proof.Proof.Claims
import Idealize.ShloMosaic.Adequacy
import Idealize.ShloMosaic.Init

noncomputable section

namespace Cert.Proof

open Idealize.ShloMosaic Idealize.SL.Sem Cert.Kernel

/-- The five claims: the three programs run and keep their arguments, the idealization rewrote nothing, and the kernel's
    blockwise mean is the reference's mean. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic_of Cert.KernelIdeal.KernelValue.run⟩

end Cert.Proof

end
